-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S2x256x40960 : Shape := ⟨3, ![2, 256, 40960]⟩
abbrev S2x256 : Shape := ⟨2, ![2, 256]⟩
abbrev S1x512 : Shape := ⟨2, ![1, 512]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S2x256x40960 : S_.BroadcastsInDim S2x256x40960 (![] : Fin 0 → Fin S2x256x40960.rank)
  reducesTo_S2x256x40960_S_d0_1_2 : S2x256x40960.ReducesTo [0, 1, 2] S_
  bcast_S_S2x256 : S_.BroadcastsInDim S2x256 (![] : Fin 0 → Fin S2x256.rank)
  reducesTo_S2x256_S_d0_1 : S2x256.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x512 .f32) (main_arg5 : FVec F S1 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4096x40960 .f32) (main_arg1 : FVec F S4096x40960 .f32) (main_arg2 : FVec F S2x256x40960 .f32) (main_arg3 : FVec F S2x256 .f32) (main_arg4 : FVec F S1x512 .f32) (main_arg5 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S2x256x40960 .f32 := Host.absf main_arg2
  let main_cst_2 : FVec F S_ .f32 := constant S_ .f32 0x7F800000#32
  let main_v10 : FVec F S2x256x40960 .f32 := broadcastInDim S2x256x40960 ![] bcast_S_S2x256x40960 main_cst_2
  let main_v11 : IVec S2x256x40960 1 := cmpf .olt main_v9 main_v10
  let main_c_3 : IVec S_ 1 := constantI S_ 1 1#1
  let main_v12 : IVec S_ 1 := (fun x v => Host.reduce IntOp.andi x v reducesTo_S2x256x40960_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_v13 main_v16
-- ==== Kernel.lean ====
abbrev S4096x40960 : Shape := ⟨2, ![4096, 40960]⟩
abbrev S2x256x40960 : Shape := ⟨3, ![2, 256, 40960]⟩
abbrev S2x256 : Shape := ⟨2, ![2, 256]⟩
abbrev S1x512 : Shape := ⟨2, ![1, 512]⟩
abbrev S1 : Shape := ⟨1, ![1]⟩
abbrev S1x256x40960 : Shape := ⟨3, ![1, 256, 40960]⟩
abbrev S256x40960 : Shape := ⟨2, ![256, 40960]⟩
abbrev S1x256 : Shape := ⟨2, ![1, 256]⟩
abbrev S4096x1 : Shape := ⟨2, ![4096, 1]⟩
abbrev S512x4096 : Shape := ⟨2, ![512, 4096]⟩
abbrev S256x4096 : Shape := ⟨2, ![256, 4096]⟩
abbrev S512x1 : Shape := ⟨2, ![512, 1]⟩
abbrev S512x256 : Shape := ⟨2, ![512, 256]⟩
abbrev S4096 : Shape := ⟨1, ![4096]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S2x256x40960, .f32⟩
  | .hbm, ⟨3, _⟩ => ⟨S2x256, .f32⟩
  | .hbm, ⟨4, _⟩ => ⟨S1x512, .f32⟩
  | .hbm, ⟨5, _⟩ => ⟨S1, .f32⟩
  | .hbm, ⟨6, _⟩ => ⟨S1x256x40960, .f32⟩
  | .hbm, ⟨7, _⟩ => ⟨S256x40960, .f32⟩
  | .hbm, ⟨8, _⟩ => ⟨S1x256x40960, .f32⟩
  | .hbm, ⟨9, _⟩ => ⟨S256x40960, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S4096x1, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x1, .f32⟩
  | .local _ .vmem, ⟨13, _⟩ => ⟨S512x1, .f32⟩
  | .local _ .vmem, ⟨14, _⟩ => ⟨S512x256, .f32⟩
  | .local _ .vmem, ⟨15, _⟩ => ⟨S512x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v25 : BitVec 1 := Scalar.cmpi .eq arg1 c9_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S2x256x40960_S1x256x40960_0_0_0 : S2x256x40960.Slices ![0, 0, 0] S1x256x40960
  shapeCasts_S1x256x40960_S256x40960 : S1x256x40960.ShapeCasts S256x40960
  slices_S2x256x40960_S1x256x40960_1_0_0 : S2x256x40960.Slices ![1, 0, 0] S1x256x40960
  slices_S2x256_S1x256_0_0 : S2x256.Slices ![0, 0] S1x256
  slices_S2x256_S1x256_1_0 : S2x256.Slices ![1, 0] S1x256
  slices_S1x512_S1x256_0_0 : S1x512.Slices ![0, 0] S1x256
  slices_S1x512_S1x256_0_256 : S1x512.Slices ![0, 256] S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x1_S512x1_0_0 : ∀ a, (![0, 0] : Fin 2 → Nat) a + S512x1.size a ≤ S512x1.size a
  h_S512x1 : 0 < S512x1.numel
  shapeCasts_S4096x1_S4096 : S4096x1.ShapeCasts S4096
  shapeCasts_S1_S_ : S1.ShapeCasts S_
  bcast_S_S4096 : S_.BroadcastsInDim S4096 (![] : Fin 0 → Fin S4096.rank)
  dot_S512x4096_S256x4096_S512x256_1_1_0_0_n_n_wf : DotDims.WF S512x4096 S256x4096 S512x256 [1] [1] [0] [0] [] []
  dot_S512x256_S1x256_S512x1_1_1_0_0_n_n_wf : DotDims.WF S512x256 S1x256 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x40960.size a
  hwx0_0 : ∀ i : grid0.Coords, EltTy.bits .f32 = 32 ∨ (Rect.block (s := S4096x40960) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x40960.size a
  hwx0_1 : ∀ i : grid0.Coords, EltTy.bits .f32 = 32 ∨ (Rect.block (s := S4096x40960) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S256x40960.size a
  hwx0_2 : ∀ i : grid0.Coords, EltTy.bits .f32 = 32 ∨ (Rect.block (s := S256x40960) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x40960.size a
  hwx0_3 : ∀ i : grid0.Coords, EltTy.bits .f32 = 32 ∨ (Rect.block (s := S256x40960) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .f32 = 32 ∨ (Rect.block (s := S4096x1) S512x1.size (cc0_transform_8 i) (hinb0_8 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S1x256_S512x1_1_1_0_0_n_n : DotDims S512x256 S1x256 S512x1 where
  lhsContracting := [1]
  rhsContracting := [1]
  lhsNonContracting := [0]
  rhsNonContracting := [0]
  lhsBatch := []
  rhsBatch := []
  wf := dot_S512x256_S1x256_S512x1_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x40960 : Shape := ⟨2, ![4096, 40960]⟩
abbrev S2x256x40960 : Shape := ⟨3, ![2, 256, 40960]⟩
abbrev S2x256 : Shape := ⟨2, ![2, 256]⟩
abbrev S1x512 : Shape := ⟨2, ![1, 512]⟩
abbrev S1 : Shape := ⟨1, ![1]⟩
abbrev S1x256x40960 : Shape := ⟨3, ![1, 256, 40960]⟩
abbrev S256x40960 : Shape := ⟨2, ![256, 40960]⟩
abbrev S4096x256 : Shape := ⟨2, ![4096, 256]⟩
abbrev S1x256 : Shape := ⟨2, ![1, 256]⟩
abbrev S256 : Shape := ⟨1, ![256]⟩
abbrev S_ : Shape := ⟨0, ![]⟩
abbrev S4096x512 : Shape := ⟨2, ![4096, 512]⟩
abbrev S512x1 : Shape := ⟨2, ![512, 1]⟩
abbrev S4096x1 : Shape := ⟨2, ![4096, 1]⟩
abbrev S1x1 : Shape := ⟨2, ![1, 1]⟩
abbrev S4096 : Shape := ⟨1, ![4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S2x256x40960, .f32⟩
  | .hbm, ⟨3, _⟩ => ⟨S2x256, .f32⟩
  | .hbm, ⟨4, _⟩ => ⟨S1x512, .f32⟩
  | .hbm, ⟨5, _⟩ => ⟨S1, .f32⟩
  | .hbm, ⟨6, _⟩ => ⟨S1x256x40960, .f32⟩
  | .hbm, ⟨7, _⟩ => ⟨S256x40960, .f32⟩
  | .hbm, ⟨8, _⟩ => ⟨S4096x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S1x256x40960, .f32⟩
  | .hbm, ⟨23, _⟩ => ⟨S256x40960, .f32⟩
  | .hbm, ⟨24, _⟩ => ⟨S4096x256, .f32⟩
  | .hbm, ⟨25, _⟩ => ⟨S1x256, .f32⟩
  | .hbm, ⟨26, _⟩ => ⟨S256, .f32⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S4096x512, .f32⟩
  | .hbm, ⟨39, _⟩ => ⟨S512x1, .f32⟩
  | .hbm, ⟨40, _⟩ => ⟨S4096x1, .f32⟩
  | .hbm, ⟨41, _⟩ => ⟨S1x1, .f32⟩
  | .hbm, ⟨42, _⟩ => ⟨S4096x1, .f32⟩
  | .hbm, ⟨43, _⟩ => ⟨S4096x1, .f32⟩
  | .hbm, ⟨44, _⟩ => ⟨S4096, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]

class Facts₀ : Prop where
  slices_S2x256x40960_S1x256x40960_0_0_0 : S2x256x40960.Slices ![0, 0, 0] S1x256x40960
  shapeCasts_S1x256x40960_S256x40960 : S1x256x40960.ShapeCasts S256x40960
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  slices_S2x256x40960_S1x256x40960_1_0_0 : S2x256x40960.Slices ![1, 0, 0] S1x256x40960
  slices_S2x256_S1x256_1_0 : S2x256.Slices ![1, 0] S1x256
  concatenates_S4096x256_S4096x256_S4096x512_d1 : Shape.Concatenates [S4096x256, S4096x256] S4096x512 1
  transposes_S1x512_S512x1_1_0 : S1x512.Transposes [1, 0] S512x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S4096x40960_S256x40960_S4096x256_1_1_0_0_n_n_wf : DotDims.WF S4096x40960 S256x40960 S4096x256 [1] [1] [0] [0] [] []
  dot_S4096x512_S512x1_S4096x1_1_0_0_1_n_n_wf : DotDims.WF S4096x512 S512x1 S4096x1 [1] [0] [0] [1] [] []

variable [Facts₀]

def dot_S4096x40960_S256x40960_S4096x256_1_1_0_0_n_n : DotDims S4096x40960 S256x40960 S4096x256 where
  lhsContracting := [1]
  rhsContracting := [1]
  lhsNonContracting := [0]
  rhsNonContracting := [0]
  lhsBatch := []
  rhsBatch := []
  wf := dot_S4096x40960_S256x40960_S4096x256_1_1_0_0_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.Spec.lean ====
/-
  The function both programs compute, over natural coordinates.

  For a batch row `b`: each of the two feature rows `x1 b`, `x2 b` (40960 entries) is contracted with its
  256 × 40960 weight matrix, the bias is added and the result is clipped into [0, 1]; the two clipped rows of
  256 are paired with the two halves of the 512 output weights, summed, and the output bias is added.

  Arrays are read at natural coordinates (zero outside their extents), so that two indices are compared by
  their coordinates alone; every sum is a sum over a range of naturals. The only laws used are those of a
  commutative monoid: a sum over 40960 = 10 · 4096 terms is the sum of ten runs of 4096, a sum over
  512 = 256 + 256 terms is the sum of its halves, and 0 is neutral. None needs the summands to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Arrays at natural coordinates -/

/-- A one-axis array read at a natural coordinate, zero outside. -/
def at1 {a : Nat} (x : (⟨1, ![a]⟩ : Shape).Idx → EReal) (p : Nat) : EReal :=
  if h : p < a then x (ix1 ⟨p, h⟩) else 0

/-- A two-axis array read at natural coordinates, zero outside. -/
def at2 {a b : Nat} (x : (⟨2, ![a, b]⟩ : Shape).Idx → EReal) (p q : Nat) : EReal :=
  if h : p < a ∧ q < b then x (ix2 ⟨p, h.1⟩ ⟨q, h.2⟩) else 0

/-- A three-axis array read at natural coordinates, zero outside. -/
def at3 {a b d : Nat} (x : (⟨3, ![a, b, d]⟩ : Shape).Idx → EReal) (p q r : Nat) : EReal :=
  if h : p < a ∧ q < b ∧ r < d then x (ix3 ⟨p, h.1⟩ ⟨q, h.2.1⟩ ⟨r, h.2.2⟩) else 0

theorem at1_of {a : Nat} (x : (⟨1, ![a]⟩ : Shape).Idx → EReal) (i : (⟨1, ![a]⟩ : Shape).Idx) (p : Nat)
    (hp : (i 0).val = p) : x i = at1 x p := by
  subst hp
  unfold at1
  rw [dif_pos (show (i 0).val < a from (i 0).isLt)]
  exact congrArg x (eq_ix1 i)

theorem at2_of {a b : Nat} (x : (⟨2, ![a, b]⟩ : Shape).Idx → EReal) (i : (⟨2, ![a, b]⟩ : Shape).Idx) (p q : Nat)
    (hp : (i 0).val = p) (hq : (i 1).val = q) : x i = at2 x p q := by
  subst hp; subst hq
  unfold at2
  rw [dif_pos (show (i 0).val < a ∧ (i 1).val < b from ⟨(i 0).isLt, (i 1).isLt⟩)]
  exact congrArg x (eq_ix2 i)

theorem at3_of {a b d : Nat} (x : (⟨3, ![a, b, d]⟩ : Shape).Idx → EReal) (i : (⟨3, ![a, b, d]⟩ : Shape).Idx)
    (p q r : Nat) (hp : (i 0).val = p) (hq : (i 1).val = q) (hr : (i 2).val = r) : x i = at3 x p q r := by
  subst hp; subst hq; subst hr
  unfold at3
  rw [dif_pos (show (i 0).val < a ∧ (i 1).val < b ∧ (i 2).val < d from ⟨(i 0).isLt, (i 1).isLt, (i 2).isLt⟩)]
  exact congrArg x (eq_ix3 i)

/-! ## The specification -/

/-- The clip's lower bound, `+0.0`, as the word both programs print. -/
def lo : EReal := Ideal.ofBits .f32 0x00000000#32
/-- The clip's upper bound, `1.0`, as the word both programs print. -/
def hi : EReal := Ideal.ofBits .f32 0x3F800000#32

/-- Row `b` of `X` against row `h` of `W`: the sum of the 40960 products. -/
def dotRow (X W : Nat → Nat → EReal) (b h : Nat) : EReal :=
  ∑ i ∈ Finset.range 40960, X b i * W h i

/-- The same sum cut after the first `k` runs of 4096 features. -/
def acc (X W : Nat → Nat → EReal) (b h k : Nat) : EReal :=
  ∑ s ∈ Finset.range k, ∑ j ∈ Finset.range 4096, X b (4096 * s + j) * W h (4096 * s + j)

/-- A hidden unit: the contraction plus its bias, clipped into [0, 1]. -/
def hid (X W : Nat → Nat → EReal) (B : Nat → EReal) (b h : Nat) : EReal :=
  min hi (max lo (dotRow X W b h + B h))

/-- The two halves of the output layer, before the output bias. -/
def pair (X1 X2 W1 W2 : Nat → Nat → EReal) (B1 B2 L : Nat → EReal) (b : Nat) : EReal :=
  (∑ h ∈ Finset.range 256, hid X1 W1 B1 b h * L h) + ∑ h ∈ Finset.range 256, hid X2 W2 B2 b h * L (256 + h)

/-- Output `b`. -/
def out (X1 X2 W1 W2 : Nat → Nat → EReal) (B1 B2 L : Nat → EReal) (bias : EReal) (b : Nat) : EReal :=
  pair X1 X2 W1 W2 B1 B2 L b + bias

/-! ## The laws -/

/-- A sum over `n · K` consecutive naturals is the sum of `n` runs of `K`. -/
theorem sum_runs {M : Type*} [AddCommMonoid M] (K : Nat) (g : Nat → M) :
    ∀ n : Nat, ∑ s ∈ Finset.range n, ∑ j ∈ Finset.range K, g (K * s + j) = ∑ i ∈ Finset.range (n * K), g i
  | 0 => by simp
  | n + 1 => by
    rw [Finset.sum_range_succ, sum_runs K g n, Nat.succ_mul, Finset.sum_range_add]
    congr 1
    exact Finset.sum_congr rfl fun j _ => by rw [Nat.mul_comm]

theorem acc_zero (X W : Nat → Nat → EReal) (b h : Nat) : acc X W b h 0 = 0 := by
  unfold acc; simp

theorem acc_succ (X W : Nat → Nat → EReal) (b h k : Nat) :
    acc X W b h (k + 1) = acc X W b h k + ∑ j ∈ Finset.range 4096, X b (4096 * k + j) * W h (4096 * k + j) := by
  unfold acc; rw [Finset.sum_range_succ]

/-- After all ten runs the cut sum is the whole contraction. -/
theorem acc_ten (X W : Nat → Nat → EReal) (b h : Nat) : acc X W b h 10 = dotRow X W b h := by
  unfold acc dotRow
  exact sum_runs 4096 (fun i => X b i * W h i) 10

/-- A sum over 512 naturals is the sum of its two halves. -/
theorem sum_halves {M : Type*} [AddCommMonoid M] (f : Nat → M) :
    ∑ j ∈ Finset.range 512, f j = (∑ h ∈ Finset.range 256, f h) + ∑ h ∈ Finset.range 256, f (256 + h) :=
  Finset.sum_range_add f 256 256

end Cert.Spec

end
-- ==== Proof.RefValue.lean ====
/-
  The reference read at an entry is the specification.

  Its run's term is read one operation at a time by the generated lemmas; the concatenation of the two clipped
  [4096, 256] arrays is read by the half the column falls in, and the 512-term contraction with the transposed
  output weights splits into its two halves.
-/
import proofs.«153753_j37074157699726_1_alg».proof.Proof.Gen.ReferenceIdeal.Read
import proofs.«153753_j37074157699726_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Spec

/-- The reference's hidden unit 0 at (b, h): the contraction of row b with weight row h of matrix 0, plus the
    bias, clipped into [0, 1]. -/
theorem hid1_eq (x0 : (⟨S4096x40960, .f32⟩ : BufTy).Contents (Elt Ideal)) (x2 : (⟨S2x256x40960, .f32⟩ : BufTy).Contents (Elt Ideal))
    (x3 : (⟨S2x256, .f32⟩ : BufTy).Contents (Elt Ideal)) (i : S4096x256.Idx) :
    Read.val_main_v8 (F := Ideal) x0 x2 x3 i = hid (at2 x0) (at3 x2 0) (at2 x3 0) (i 0).val (i 1).val := by
  have h1 : (i 1).val < 256 := (i 1).isLt
  rw [Read.val_main_v8_apply, Read.val_main_call0_v4_apply, Read.val_main_call0_v3_apply, Read.val_main_cst_0_apply, Read.val_main_call0_v2_apply,
    Read.val_main_call0_v1_apply, Read.val_main_call0_v0_apply, Read.val_main_cst_apply, Read.val_main_v7_apply, Read.val_main_v2_apply,
    Read.val_main_v6_apply, Read.val_main_v5_apply, Read.val_main_v4_apply, Read.val_main_v3_apply]
  show min (Ideal.ofBits .f32 0x3F800000#32) (max (Ideal.ofBits .f32 0x00000000#32) (_ + _)) = _
  unfold hid hi lo dotRow
  refine congrArg₂ (fun u v : EReal => min (Ideal.ofBits .f32 0x3F800000#32) (max (Ideal.ofBits .f32 0x00000000#32) (u + v))) ?_ ?_
  · rw [Finset.sum_range (fun k => at2 x0 (i 0).val k * at3 x2 0 (i 1).val k)]
    refine Finset.sum_congr rfl fun k _ => ?_
    have hk : k.val < 40960 := k.isLt
    rw [Read.val_main_v1_apply, Read.val_main_v0_apply]
    congr 1
    · exact at2_of x0 _ _ _ rfl rfl
    · exact at3_of x2 _ _ _ _ rfl
        (by show ((i 1).val * 40960 + k.val) / 40960 % 256 = (i 1).val; omega)
        (by show ((i 1).val * 40960 + k.val) % 40960 = k.val; omega)
  · exact at2_of x3 _ _ _ rfl (by show (i 1).val % 256 = (i 1).val; omega)

/-- The reference's hidden unit 1 at (b, h): the contraction of row b with weight row h of matrix 1, plus the
    bias, clipped into [0, 1]. -/
theorem hid2_eq (x1 : (⟨S4096x40960, .f32⟩ : BufTy).Contents (Elt Ideal)) (x2 : (⟨S2x256x40960, .f32⟩ : BufTy).Contents (Elt Ideal))
    (x3 : (⟨S2x256, .f32⟩ : BufTy).Contents (Elt Ideal)) (i : S4096x256.Idx) :
    Read.val_main_v17 (F := Ideal) x1 x2 x3 i = hid (at2 x1) (at3 x2 1) (at2 x3 1) (i 0).val (i 1).val := by
  have h1 : (i 1).val < 256 := (i 1).isLt
  rw [Read.val_main_v17_apply, Read.val_main_call1_v4_apply, Read.val_main_call1_v3_apply, Read.val_main_cst_2_apply, Read.val_main_call1_v2_apply,
    Read.val_main_call1_v1_apply, Read.val_main_call1_v0_apply, Read.val_main_cst_1_apply, Read.val_main_v16_apply, Read.val_main_v11_apply,
    Read.val_main_v15_apply, Read.val_main_v14_apply, Read.val_main_v13_apply, Read.val_main_v12_apply]
  show min (Ideal.ofBits .f32 0x3F800000#32) (max (Ideal.ofBits .f32 0x00000000#32) (_ + _)) = _
  unfold hid hi lo dotRow
  refine congrArg₂ (fun u v : EReal => min (Ideal.ofBits .f32 0x3F800000#32) (max (Ideal.ofBits .f32 0x00000000#32) (u + v))) ?_ ?_
  · rw [Finset.sum_range (fun k => at2 x1 (i 0).val k * at3 x2 1 (i 1).val k)]
    refine Finset.sum_congr rfl fun k _ => ?_
    have hk : k.val < 40960 := k.isLt
    rw [Read.val_main_v10_apply, Read.val_main_v9_apply]
    congr 1
    · exact at2_of x1 _ _ _ rfl rfl
    · exact at3_of x2 _ _ _ _ rfl
        (by show ((i 1).val * 40960 + k.val) / 40960 % 256 = (i 1).val; omega)
        (by show ((i 1).val * 40960 + k.val) % 40960 = k.val; omega)
  · exact at2_of x3 _ _ _ rfl (by show (i 1).val % 256 = (i 1).val; omega)

/-- The concatenation at (b, k): hidden unit k of the first matrix for k < 256, hidden unit k − 256 of the second
    otherwise. -/
theorem cat_eq (x0 x1 : (⟨S4096x40960, .f32⟩ : BufTy).Contents (Elt Ideal)) (x2 : (⟨S2x256x40960, .f32⟩ : BufTy).Contents (Elt Ideal))
    (x3 : (⟨S2x256, .f32⟩ : BufTy).Contents (Elt Ideal)) (j : S4096x512.Idx) :
    Read.val_main_v18 (F := Ideal) x0 x1 x2 x3 j
      = if (j 1).val < 256 then hid (at2 x0) (at3 x2 0) (at2 x3 0) (j 0).val (j 1).val
        else hid (at2 x1) (at3 x2 1) (at2 x3 1) (j 0).val ((j 1).val - 256) := by
  have h0 : (j 0).val < 4096 := (j 0).isLt
  have h1 : (j 1).val < 512 := (j 1).isLt
  unfold Read.val_main_v18
  by_cases hlt : (j 1).val < 256
  · rw [if_pos hlt]
    rw [concatenate_pair_apply_left 1 _ _ concatenates_S4096x256_S4096x256_S4096x512_d1 j rfl
      (ix2 ⟨(j 0).val, h0⟩ ⟨(j 1).val, hlt⟩) (fun b => match b with | ⟨0, _⟩ => rfl | ⟨1, _⟩ => rfl)]
    exact hid1_eq x0 x2 x3 _
  · rw [if_neg hlt]
    rw [concatenate_pair_apply_right 1 _ _ concatenates_S4096x256_S4096x256_S4096x512_d1 j rfl rfl
      (ix2 ⟨(j 0).val, h0⟩ ⟨(j 1).val - 256, by omega⟩)
      (fun b => match b with | ⟨0, _⟩ => fun _ => rfl | ⟨1, _⟩ => fun hne => absurd rfl hne)
      (by show (j 1).val - 256 + 256 = (j 1).val; omega)]
    exact hid2_eq x1 x2 x3 _

/-- Term k of the reference's 512-term contraction for row b: the concatenation's entry against output weight k. -/
def catTerm (x0 x1 : (⟨S4096x40960, .f32⟩ : BufTy).Contents (Elt Ideal)) (x2 : (⟨S2x256x40960, .f32⟩ : BufTy).Contents (Elt Ideal))
    (x3 : (⟨S2x256, .f32⟩ : BufTy).Contents (Elt Ideal)) (x4 : (⟨S1x512, .f32⟩ : BufTy).Contents (Elt Ideal)) (b k : Nat) : EReal :=
  (if k < 256 then hid (at2 x0) (at3 x2 0) (at2 x3 0) b k else hid (at2 x1) (at3 x2 1) (at2 x3 1) b (k - 256)) * at2 x4 0 k

/-- The 512 terms split into the two halves the specification names. -/
theorem catTerm_sum (x0 x1 : (⟨S4096x40960, .f32⟩ : BufTy).Contents (Elt Ideal)) (x2 : (⟨S2x256x40960, .f32⟩ : BufTy).Contents (Elt Ideal))
    (x3 : (⟨S2x256, .f32⟩ : BufTy).Contents (Elt Ideal)) (x4 : (⟨S1x512, .f32⟩ : BufTy).Contents (Elt Ideal)) (b : Nat) :
    ∑ k ∈ Finset.range 512, catTerm x0 x1 x2 x3 x4 b k
      = pair (at2 x0) (at2 x1) (at3 x2 0) (at3 x2 1) (at2 x3 0) (at2 x3 1) (at2 x4 0) b := by
  rw [sum_halves]
  unfold pair
  refine congrArg₂ (fun u v : EReal => u + v) (Finset.sum_congr rfl fun h hh => ?_) (Finset.sum_congr rfl fun h hh => ?_)
  · unfold catTerm
    rw [if_pos (Finset.mem_range.mp hh)]
  · unfold catTerm
    rw [if_neg (by omega), Nat.add_sub_cancel_left]

/-- The reference's result as a function of the argument arrays. -/
def result (x0 x1 : (⟨S4096x40960, .f32⟩ : BufTy).Contents (Elt Ideal)) (x2 : (⟨S2x256x40960, .f32⟩ : BufTy).Contents (Elt Ideal))
    (x3 : (⟨S2x256, .f32⟩ : BufTy).Contents (Elt Ideal)) (x4 : (⟨S1x512, .f32⟩ : BufTy).Contents (Elt Ideal))
    (x5 : (⟨S1, .f32⟩ : BufTy).Contents (Elt Ideal)) : S4096.Idx → EReal :=
  fun i => out (at2 x0) (at2 x1) (at3 x2 0) (at3 x2 1) (at2 x3 0) (at2 x3 1) (at2 x4 0) (at1 x5 0) (i 0).val

/-- The reference's last stage IS the specification. -/
theorem ref_eq (x0 x1 : (⟨S4096x40960, .f32⟩ : BufTy).Contents (Elt Ideal)) (x2 : (⟨S2x256x40960, .f32⟩ : BufTy).Contents (Elt Ideal))
    (x3 : (⟨S2x256, .f32⟩ : BufTy).Contents (Elt Ideal)) (x4 : (⟨S1x512, .f32⟩ : BufTy).Contents (Elt Ideal))
    (x5 : (⟨S1, .f32⟩ : BufTy).Contents (Elt Ideal)) :
    Read.val_main_v24 (F := Ideal) x0 x1 x2 x3 x4 x5 = result x0 x1 x2 x3 x4 x5 := by
  funext i
  rw [Read.val_main_v24_apply, Read.val_main_v23_apply, Read.val_main_v20_apply, Read.val_main_v22_apply,
    Read.val_main_v21_apply]
  show (_ : EReal) + _ = _
  unfold result out
  refine congrArg₂ (fun u v : EReal => u + v) ?_ ?_
  · rw [← catTerm_sum, Finset.sum_range]
    refine Finset.sum_congr rfl fun k _ => ?_
    rw [cat_eq, Read.val_main_v19_apply]
    unfold catTerm
    refine congrArg₂ (fun u v : EReal => u * v) ?_ ?_
    · show (if k.val < 256 then hid _ _ _ ((i 0).val / 1) k.val else hid _ _ _ ((i 0).val / 1) (k.val - 256)) = _
      rw [Nat.div_one]
    · exact at2_of x4 _ _ _ rfl rfl
  · exact at1_of x5 _ _ rfl

end Cert.ReferenceIdeal.RefValue

end
-- ==== Proof.Blocks.lean ====
/-
  The blocks the kernel's windows read, as entries of the argument arrays.

  Grid point t is row tile t / 10 and feature tile t % 10. The two feature windows read the [512, 4096] block at
  (t / 10, t % 10); the two weight windows read the [256, 4096] block at (0, t % 10) of one of the two weight
  matrices (a slice of the stacked weights, reshaped, before the kernel is launched); the bias and output-weight
  windows read one row each, whole.
-/
import proofs.«153753_j37074157699726_1_alg».proof.Proof.Gen.KernelIdeal.Frame.Runs
import proofs.«153753_j37074157699726_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx Cert.Spec

variable (m : (ℓ : Loc nD τ sig) → Buf (Elt Ideal) ℓ)

/-! ## The index maps over the grid -/

theorem idx_feat : ∀ t : Fin cfg0.N, win0_0.index t (0 : Fin 2) = t.val / 10 ∧ win0_0.index t (1 : Fin 2) = t.val % 10
      ∧ win0_1.index t (0 : Fin 2) = t.val / 10 ∧ win0_1.index t (1 : Fin 2) = t.val % 10 :=
  (by decide +kernel : ∀ t : Fin grid0.N, win0_0.index t (0 : Fin 2) = t.val / 10 ∧ win0_0.index t (1 : Fin 2) = t.val % 10
      ∧ win0_1.index t (0 : Fin 2) = t.val / 10 ∧ win0_1.index t (1 : Fin 2) = t.val % 10)

theorem idx_wt : ∀ t : Fin cfg0.N, win0_2.index t (0 : Fin 2) = 0 ∧ win0_2.index t (1 : Fin 2) = t.val % 10
      ∧ win0_3.index t (0 : Fin 2) = 0 ∧ win0_3.index t (1 : Fin 2) = t.val % 10 :=
  (by decide +kernel : ∀ t : Fin grid0.N, win0_2.index t (0 : Fin 2) = 0 ∧ win0_2.index t (1 : Fin 2) = t.val % 10
      ∧ win0_3.index t (0 : Fin 2) = 0 ∧ win0_3.index t (1 : Fin 2) = t.val % 10)

theorem idx_row : ∀ t : Fin cfg0.N, (win0_4.index t (0 : Fin 2) = 0 ∧ win0_4.index t (1 : Fin 2) = 0)
      ∧ (win0_5.index t (0 : Fin 2) = 0 ∧ win0_5.index t (1 : Fin 2) = 0)
      ∧ (win0_6.index t (0 : Fin 2) = 0 ∧ win0_6.index t (1 : Fin 2) = 0)
      ∧ (win0_7.index t (0 : Fin 2) = 0 ∧ win0_7.index t (1 : Fin 2) = 0) :=
  (by decide +kernel : ∀ t : Fin grid0.N, (win0_4.index t (0 : Fin 2) = 0 ∧ win0_4.index t (1 : Fin 2) = 0)
      ∧ (win0_5.index t (0 : Fin 2) = 0 ∧ win0_5.index t (1 : Fin 2) = 0)
      ∧ (win0_6.index t (0 : Fin 2) = 0 ∧ win0_6.index t (1 : Fin 2) = 0)
      ∧ (win0_7.index t (0 : Fin 2) = 0 ∧ win0_7.index t (1 : Fin 2) = 0))

theorem idx_out : ∀ t : Fin cfg0.N, win0_8.index t (0 : Fin 2) = t.val / 10 ∧ win0_8.index t (1 : Fin 2) = 0 :=
  (by decide +kernel : ∀ t : Fin grid0.N, win0_8.index t (0 : Fin 2) = t.val / 10 ∧ win0_8.index t (1 : Fin 2) = 0)

/-! ## The arrays the host prepares before the launch -/

theorem V_w1 (c : Dev nD) : (V m c main_v1 : S256x40960.Idx → EReal)
    = shapeCast S256x40960 (extractStridedSlice S1x256x40960 ![0, 0, 0] (m ((c : Thread nD τ).loc main_arg2)) slices_S2x256x40960_S1x256x40960_0_0_0) shapeCasts_S1x256x40960_S256x40960 := by
  show StableHlo.after hostOps0 (fun b => m (c, b)) (Proc.devRef .tc main_v1) = _
  after_results <;> rfl

theorem V_w2 (c : Dev nD) : (V m c main_v3 : S256x40960.Idx → EReal)
    = shapeCast S256x40960 (extractStridedSlice S1x256x40960 ![1, 0, 0] (m ((c : Thread nD τ).loc main_arg2)) slices_S2x256x40960_S1x256x40960_1_0_0) shapeCasts_S1x256x40960_S256x40960 := by
  show StableHlo.after hostOps0 (fun b => m (c, b)) (Proc.devRef .tc main_v3) = _
  after_results <;> rfl

theorem V_b1 (c : Dev nD) : (V m c main_v4 : S1x256.Idx → EReal)
    = extractStridedSlice S1x256 ![0, 0] (m ((c : Thread nD τ).loc main_arg3)) slices_S2x256_S1x256_0_0 := by
  show StableHlo.after hostOps0 (fun b => m (c, b)) (Proc.devRef .tc main_v4) = _
  after_results <;> rfl

theorem V_b2 (c : Dev nD) : (V m c main_v5 : S1x256.Idx → EReal)
    = extractStridedSlice S1x256 ![1, 0] (m ((c : Thread nD τ).loc main_arg3)) slices_S2x256_S1x256_1_0 := by
  show StableHlo.after hostOps0 (fun b => m (c, b)) (Proc.devRef .tc main_v5) = _
  after_results <;> rfl

theorem V_l1 (c : Dev nD) : (V m c main_v6 : S1x256.Idx → EReal)
    = extractStridedSlice S1x256 ![0, 0] (m ((c : Thread nD τ).loc main_arg4)) slices_S1x512_S1x256_0_0 := by
  show StableHlo.after hostOps0 (fun b => m (c, b)) (Proc.devRef .tc main_v6) = _
  after_results <;> rfl

theorem V_l2 (c : Dev nD) : (V m c main_v7 : S1x256.Idx → EReal)
    = extractStridedSlice S1x256 ![0, 256] (m ((c : Thread nD τ).loc main_arg4)) slices_S1x512_S1x256_0_256 := by
  show StableHlo.after hostOps0 (fun b => m (c, b)) (Proc.devRef .tc main_v7) = _
  after_results <;> rfl

/-! ## The windows' blocks, entry by entry -/

/-- The first feature window at point t, entry (r, j): row 512·(t/10) + r, feature 4096·(t%10) + j of `x1`. -/
theorem feat1 (c : Dev nD) (t : Fin cfg0.N) (r j : Nat) (hr : r < 512) (hj : j < 4096) :
    at2 (iblk m c 0 t : S512x4096.Idx → EReal) r j
      = at2 (m ((c : Thread nD τ).loc main_arg0) : S4096x40960.Idx → EReal) (512 * (t.val / 10) + r) (4096 * (t.val % 10) + j) := by
  rw [← at2_of (iblk m c 0 t : S512x4096.Idx → EReal) (ix2 ⟨r, hr⟩ ⟨j, hj⟩) r j rfl rfl]
  unfold iblk
  rw [View.read_apply]
  show V m c main_arg0 _ = _
  rw [V_main_arg0]
  refine at2_of _ _ _ _ ?_ ?_
  · show win0_0.index t (0 : Fin 2) * 512 + 1 * r = _
    rw [(idx_feat t).1]; omega
  · show win0_0.index t (1 : Fin 2) * 4096 + 1 * j = _
    rw [(idx_feat t).2.1]; omega

/-- The second feature window: the same entries of `x2`. -/
theorem feat2 (c : Dev nD) (t : Fin cfg0.N) (r j : Nat) (hr : r < 512) (hj : j < 4096) :
    at2 (iblk m c 1 t : S512x4096.Idx → EReal) r j
      = at2 (m ((c : Thread nD τ).loc main_arg1) : S4096x40960.Idx → EReal) (512 * (t.val / 10) + r) (4096 * (t.val % 10) + j) := by
  rw [← at2_of (iblk m c 1 t : S512x4096.Idx → EReal) (ix2 ⟨r, hr⟩ ⟨j, hj⟩) r j rfl rfl]
  unfold iblk
  rw [View.read_apply]
  show V m c main_arg1 _ = _
  rw [V_main_arg1]
  refine at2_of _ _ _ _ ?_ ?_
  · show win0_1.index t (0 : Fin 2) * 512 + 1 * r = _
    rw [(idx_feat t).2.2.1]; omega
  · show win0_1.index t (1 : Fin 2) * 4096 + 1 * j = _
    rw [(idx_feat t).2.2.2]; omega

/-- The first weight window at point t, entry (h, j): row h, feature 4096·(t%10) + j of weight matrix 0. -/
theorem wt1 (c : Dev nD) (t : Fin cfg0.N) (h j : Nat) (hh : h < 256) (hj : j < 4096) :
    at2 (iblk m c 2 t : S256x4096.Idx → EReal) h j
      = at3 (m ((c : Thread nD τ).loc main_arg2) : S2x256x40960.Idx → EReal) 0 h (4096 * (t.val % 10) + j) := by
  have hq : 4096 * (t.val % 10) + j < 40960 := by have := t.isLt; have : cfg0.N = 80 := N_0; omega
  rw [← at2_of (iblk m c 2 t : S256x4096.Idx → EReal) (ix2 ⟨h, hh⟩ ⟨j, hj⟩) h j rfl rfl]
  unfold iblk
  rw [View.read_apply]
  show (V m c main_v1 : S256x40960.Idx → EReal) _ = _
  rw [V_w1]
  refine (shapeCast_apply _ shapeCasts_S1x256x40960_S256x40960 _ (ix3 (0 : Fin 1) ⟨h, hh⟩ ⟨4096 * (t.val % 10) + j, hq⟩) ?_).trans ?_
  · rw [Shape.rowMajor_val_three, Shape.rowMajor_val_two]
    show (0 * 256 + h) * 40960 + (4096 * (t.val % 10) + j) = (win0_2.index t (0 : Fin 2) * 256 + 1 * h) * 40960 + (win0_2.index t (1 : Fin 2) * 4096 + 1 * j)
    rw [(idx_wt t).1, (idx_wt t).2.1]; omega
  · refine (extractStridedSlice_apply ![0, 0, 0] _ slices_S2x256x40960_S1x256x40960_0_0_0 _ (ix3 (⟨0, by decide⟩ : Fin 2) ⟨h, hh⟩ ⟨4096 * (t.val % 10) + j, hq⟩)
      (fun a => match a with | ⟨0, _⟩ => rfl | ⟨1, _⟩ => (Nat.zero_add _).symm | ⟨2, _⟩ => (Nat.zero_add _).symm)).trans ?_
    exact at3_of _ _ _ _ _ rfl rfl rfl

/-- The second weight window: the same entries of weight matrix 1. -/
theorem wt2 (c : Dev nD) (t : Fin cfg0.N) (h j : Nat) (hh : h < 256) (hj : j < 4096) :
    at2 (iblk m c 3 t : S256x4096.Idx → EReal) h j
      = at3 (m ((c : Thread nD τ).loc main_arg2) : S2x256x40960.Idx → EReal) 1 h (4096 * (t.val % 10) + j) := by
  have hq : 4096 * (t.val % 10) + j < 40960 := by have := t.isLt; have : cfg0.N = 80 := N_0; omega
  rw [← at2_of (iblk m c 3 t : S256x4096.Idx → EReal) (ix2 ⟨h, hh⟩ ⟨j, hj⟩) h j rfl rfl]
  unfold iblk
  rw [View.read_apply]
  show (V m c main_v3 : S256x40960.Idx → EReal) _ = _
  rw [V_w2]
  refine (shapeCast_apply _ shapeCasts_S1x256x40960_S256x40960 _ (ix3 (0 : Fin 1) ⟨h, hh⟩ ⟨4096 * (t.val % 10) + j, hq⟩) ?_).trans ?_
  · rw [Shape.rowMajor_val_three, Shape.rowMajor_val_two]
    show (0 * 256 + h) * 40960 + (4096 * (t.val % 10) + j) = (win0_3.index t (0 : Fin 2) * 256 + 1 * h) * 40960 + (win0_3.index t (1 : Fin 2) * 4096 + 1 * j)
    rw [(idx_wt t).2.2.1, (idx_wt t).2.2.2]; omega
  · refine (extractStridedSlice_apply ![1, 0, 0] _ slices_S2x256x40960_S1x256x40960_1_0_0 _ (ix3 (⟨1, by decide⟩ : Fin 2) ⟨h, hh⟩ ⟨4096 * (t.val % 10) + j, hq⟩)
      (fun a => match a with | ⟨0, _⟩ => rfl | ⟨1, _⟩ => (Nat.zero_add _).symm | ⟨2, _⟩ => (Nat.zero_add _).symm)).trans ?_
    exact at3_of _ _ _ _ _ rfl rfl rfl

/-- The first bias window: row 0 of the biases. -/
theorem bias1 (c : Dev nD) (t : Fin cfg0.N) (h : Nat) (hh : h < 256) :
    at2 (iblk m c 4 t : S1x256.Idx → EReal) 0 h
      = at2 (m ((c : Thread nD τ).loc main_arg3) : S2x256.Idx → EReal) 0 (h) := by
  rw [← at2_of (iblk m c 4 t : S1x256.Idx → EReal) (ix2 ⟨0, Nat.one_pos⟩ ⟨h, hh⟩) 0 h rfl rfl]
  unfold iblk
  rw [View.read_apply]
  show (V m c main_v4 : S1x256.Idx → EReal) _ = _
  rw [V_b1]
  refine (extractStridedSlice_apply ![0, 0] _ slices_S2x256_S1x256_0_0 _ (ix2 ⟨0, by decide⟩ ⟨h, by omega⟩)
    (fun a => match a with | ⟨0, _⟩ => ?_ | ⟨1, _⟩ => ?_)).trans (at2_of _ _ _ _ rfl rfl)
  · show 0 = 0 + (win0_4.index t (0 : Fin 2) * 1 + 1 * 0)
    rw [(idx_row t).1.1]
  · show h = 0 + (win0_4.index t (1 : Fin 2) * 256 + 1 * h)
    rw [(idx_row t).1.2]; omega

/-- The second bias window: row 1 of the biases. -/
theorem bias2 (c : Dev nD) (t : Fin cfg0.N) (h : Nat) (hh : h < 256) :
    at2 (iblk m c 5 t : S1x256.Idx → EReal) 0 h
      = at2 (m ((c : Thread nD τ).loc main_arg3) : S2x256.Idx → EReal) 1 (h) := by
  rw [← at2_of (iblk m c 5 t : S1x256.Idx → EReal) (ix2 ⟨0, Nat.one_pos⟩ ⟨h, hh⟩) 0 h rfl rfl]
  unfold iblk
  rw [View.read_apply]
  show (V m c main_v5 : S1x256.Idx → EReal) _ = _
  rw [V_b2]
  refine (extractStridedSlice_apply ![1, 0] _ slices_S2x256_S1x256_1_0 _ (ix2 ⟨1, by decide⟩ ⟨h, by omega⟩)
    (fun a => match a with | ⟨0, _⟩ => ?_ | ⟨1, _⟩ => ?_)).trans (at2_of _ _ _ _ rfl rfl)
  · show 1 = 1 + (win0_5.index t (0 : Fin 2) * 1 + 1 * 0)
    rw [(idx_row t).2.1.1]
  · show h = 0 + (win0_5.index t (1 : Fin 2) * 256 + 1 * h)
    rw [(idx_row t).2.1.2]; omega

/-- The first output-weight window: the first 256 output weights. -/
theorem outw1 (c : Dev nD) (t : Fin cfg0.N) (h : Nat) (hh : h < 256) :
    at2 (iblk m c 6 t : S1x256.Idx → EReal) 0 h
      = at2 (m ((c : Thread nD τ).loc main_arg4) : S1x512.Idx → EReal) 0 (h) := by
  rw [← at2_of (iblk m c 6 t : S1x256.Idx → EReal) (ix2 ⟨0, Nat.one_pos⟩ ⟨h, hh⟩) 0 h rfl rfl]
  unfold iblk
  rw [View.read_apply]
  show (V m c main_v6 : S1x256.Idx → EReal) _ = _
  rw [V_l1]
  refine (extractStridedSlice_apply ![0, 0] _ slices_S1x512_S1x256_0_0 _ (ix2 ⟨0, by decide⟩ ⟨h, by omega⟩)
    (fun a => match a with | ⟨0, _⟩ => ?_ | ⟨1, _⟩ => ?_)).trans (at2_of _ _ _ _ rfl rfl)
  · show 0 = 0 + (win0_6.index t (0 : Fin 2) * 1 + 1 * 0)
    rw [(idx_row t).2.2.1.1]
  · show h = 0 + (win0_6.index t (1 : Fin 2) * 256 + 1 * h)
    rw [(idx_row t).2.2.1.2]; omega

/-- The second output-weight window: the last 256 output weights. -/
theorem outw2 (c : Dev nD) (t : Fin cfg0.N) (h : Nat) (hh : h < 256) :
    at2 (iblk m c 7 t : S1x256.Idx → EReal) 0 h
      = at2 (m ((c : Thread nD τ).loc main_arg4) : S1x512.Idx → EReal) 0 (256 + h) := by
  rw [← at2_of (iblk m c 7 t : S1x256.Idx → EReal) (ix2 ⟨0, Nat.one_pos⟩ ⟨h, hh⟩) 0 h rfl rfl]
  unfold iblk
  rw [View.read_apply]
  show (V m c main_v7 : S1x256.Idx → EReal) _ = _
  rw [V_l2]
  refine (extractStridedSlice_apply ![0, 256] _ slices_S1x512_S1x256_0_256 _ (ix2 ⟨0, by decide⟩ ⟨256 + h, by omega⟩)
    (fun a => match a with | ⟨0, _⟩ => ?_ | ⟨1, _⟩ => ?_)).trans (at2_of _ _ _ _ rfl rfl)
  · show 0 = 0 + (win0_7.index t (0 : Fin 2) * 1 + 1 * 0)
    rw [(idx_row t).2.2.2.1]
  · show 256 + h = 256 + (win0_7.index t (1 : Fin 2) * 256 + 1 * h)
    rw [(idx_row t).2.2.2.2]; omega

end Cert.KernelIdeal.Blocks

end
-- ==== Proof.Pieces.lean ====
/-
  What each control case of the kernel body leaves in the two accumulators and in the output block, as the
  body's stored values of the blocks it loaded.

  At a first feature tile the accumulators are zeroed, read back and stored at zero plus the tile's product; at
  every other tile they are stored at their previous contents plus the tile's product; at a last tile the output
  block is then stored from the two accumulators just written.
-/
import proofs.«153753_j37074157699726_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first tile leaves the first accumulator at zero plus the tile's product. -/
theorem first_acc1 (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : cond0_0 i) (hc1 : ¬cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

/-- A first tile leaves the second accumulator at zero plus the tile's product. -/
theorem first_acc2 (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : cond0_0 i) (hc1 : ¬cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 x1 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

/-- A middle tile adds its product to the first accumulator. -/
theorem mid_acc1 (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : ¬cond0_0 i) (hc1 : ¬cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) (xs0 : Vec F S512x256 .f32) (xs1 : Vec F S512x256 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

/-- A middle tile adds its product to the second accumulator. -/
theorem mid_acc2 (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : ¬cond0_0 i) (hc1 : ¬cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) (xs0 : Vec F S512x256 .f32) (xs1 : Vec F S512x256 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

/-- A last tile adds its product to the first accumulator. -/
theorem last_acc1 (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : ¬cond0_0 i) (hc1 : cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) (xs0 : Vec F S512x256 .f32) (xs1 : Vec F S512x256 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

/-- A last tile adds its product to the second accumulator. -/
theorem last_acc2 (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : ¬cond0_0 i) (hc1 : cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) (xs0 : Vec F S512x256 .f32) (xs1 : Vec F S512x256 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

/-- A last tile stores the output block from the two accumulators it has just written. -/
theorem last_out (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x256 .f32) (harg11 : arg11.IsWhole) (arg12 : Memref sig .tc .vmem S512x256 .f32) (harg12 : arg12.IsWhole) (hc0 : ¬cond0_0 i) (hc1 : cond0_1 i) (x0 : Vec F S512x4096 .f32) (x1 : Vec F S512x4096 .f32) (x2 : Vec F S256x4096 .f32) (x3 : Vec F S256x4096 .f32) (x4 : Vec F S1x256 .f32) (x5 : Vec F S1x256 .f32) (x6 : Vec F S1x256 .f32) (x7 : Vec F S1x256 .f32) (xs0 : Vec F S512x256 .f32) (xs1 : Vec F S512x256 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 (k0_pay3 x0 x2 xs0) x4 (k0_pay4 x1 x3 xs1) x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz, View.readCov_unit_zero (S := S512x256) _ hz, View.readCov_unit_zero (S := S512x256) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x4096) hz, View.ld_unit_zero (S := S256x4096) hz, View.ld_unit_zero (S := S512x256) hz, View.ld_unit_zero (S := S1x256) hz]

end Cert.KernelIdeal.Pieces

end
-- ==== Proof.PayIdx.lean ====
/-
  The kernel body's stored values read at an entry, on the extended reals.

  A block product `x · wᵀ` into a zero accumulator, read at (r, h), is the sum over the block's 4096 (or 256)
  columns of the products of row r of x and row h of w; the accumulating store adds that to what the accumulator
  held; the last store pairs the two clipped accumulators with the two halves of the output weights.
-/
import proofs.«153753_j37074157699726_1_alg».proof.Proof.Gen.KernelIdeal.Skeleton
import proofs.«153753_j37074157699726_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx Cert.Spec

/-! ## The two contractions' operand indices, coordinate by coordinate -/

theorem d1_l0 (i : S512x256.Idx) (q : dot_S512x4096_S256x4096_S512x256_1_1_0_0_n_n.contr.Idx) : (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem d1_l1 (i : S512x256.Idx) (q : dot_S512x4096_S256x4096_S512x256_1_1_0_0_n_n.contr.Idx) : (dot_S512x4096_S256x4096_S512x256_1_1_0_0_n_n.lhsIdx i q 1).val = (q ⟨0, by decide⟩).val :=
  dot_S512x4096_S256x4096_S512x256_1_1_0_0_n_n.lhsIdx_val_of_single rfl i q
theorem d1_r0 (i : S512x256.Idx) (q : dot_S512x4096_S256x4096_S512x256_1_1_0_0_n_n.contr.Idx) : (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem d1_r1 (i : S512x256.Idx) (q : dot_S512x4096_S256x4096_S512x256_1_1_0_0_n_n.contr.Idx) : (dot_S512x4096_S256x4096_S512x256_1_1_0_0_n_n.rhsIdx i q 1).val = (q ⟨0, by decide⟩).val :=
  dot_S512x4096_S256x4096_S512x256_1_1_0_0_n_n.rhsIdx_val_of_single rfl i q

theorem d2_l0 (i : S512x1.Idx) (q : dot_S512x256_S1x256_S512x1_1_1_0_0_n_n.contr.Idx) : (dot_S512x256_S1x256_S512x1_1_1_0_0_n_n.lhsIdx i q 0).val = (i 0).val := by
  unfold DotDims.lhsIdx
  rw [dif_neg (show ¬(0 : Fin S512x256.rank) ∈ dot_S512x256_S1x256_S512x1_1_1_0_0_n_n.lhsBatch by decide), dif_pos (show (0 : Fin S512x256.rank) ∈ dot_S512x256_S1x256_S512x1_1_1_0_0_n_n.lhsNonContracting by decide)]
  rfl
theorem d2_l1 (i : S512x1.Idx) (q : dot_S512x256_S1x256_S512x1_1_1_0_0_n_n.contr.Idx) : (dot_S512x256_S1x256_S512x1_1_1_0_0_n_n.lhsIdx i q 1).val = (q ⟨0, by decide⟩).val :=
  dot_S512x256_S1x256_S512x1_1_1_0_0_n_n.lhsIdx_val_of_single rfl i q
theorem d2_r0 (i : S512x1.Idx) (q : dot_S512x256_S1x256_S512x1_1_1_0_0_n_n.contr.Idx) : (dot_S512x256_S1x256_S512x1_1_1_0_0_n_n.rhsIdx i q 0).val = (i 1).val := by
  unfold DotDims.rhsIdx
  rw [dif_neg (show ¬(0 : Fin S1x256.rank) ∈ dot_S512x256_S1x256_S512x1_1_1_0_0_n_n.rhsBatch by decide), dif_pos (show (0 : Fin S1x256.rank) ∈ dot_S512x256_S1x256_S512x1_1_1_0_0_n_n.rhsNonContracting by decide)]
  rfl
theorem d2_r1 (i : S512x1.Idx) (q : dot_S512x256_S1x256_S512x1_1_1_0_0_n_n.contr.Idx) : (dot_S512x256_S1x256_S512x1_1_1_0_0_n_n.rhsIdx i q 1).val = (q ⟨0, by decide⟩).val :=
  dot_S512x256_S1x256_S512x1_1_1_0_0_n_n.rhsIdx_val_of_single rfl i q

/-- A [512, 4096] block against a [256, 4096] block, contracted over the columns into zero: at (r, h) the sum
    over the 4096 columns of `x r j · w h j`. -/
theorem blockDot_apply (x : FVec Ideal S512x4096 .bf16) (w : FVec Ideal S256x4096 .bf16) (r : Fin 512) (h : Fin 256) :
    FloatOps.matmul dot_S512x4096_S256x4096_S512x256_1_1_0_0_n_n none x w (constant S512x256 .f32 0x00000000#32) (ix2 r h)
      = ∑ j ∈ Finset.range 4096, at2 x r j * at2 w h j := by
  rw [Ideal.matmul_constant_zero_apply, ← Equiv.sum_comp (contrEquiv1 dot_S512x4096_S256x4096_S512x256_1_1_0_0_n_n 4096 rfl rfl).symm,
    Finset.sum_range (fun j => at2 x r j * at2 w h j)]
  refine Finset.sum_congr rfl fun k _ => ?_
  have hk := contrEquiv1_symm_val dot_S512x4096_S256x4096_S512x256_1_1_0_0_n_n 4096 rfl rfl k
  rw [at2_of x _ r k ((d1_l0 _ _).trans rfl) ((d1_l1 _ _).trans hk), at2_of w _ h k ((d1_r0 _ _).trans rfl) ((d1_r1 _ _).trans hk)]

/-- A [512, 256] block against one row [1, 256], contracted over the 256 columns into zero: at (r, 0) the sum of
    `y r h · w 0 h`. -/
theorem rowDot_apply (y : FVec Ideal S512x256 .f32) (w : FVec Ideal S1x256 .f32) (r : Fin 512) (z : Fin 1) :
    FloatOps.matmul dot_S512x256_S1x256_S512x1_1_1_0_0_n_n none y w (constant S512x1 .f32 0x00000000#32) (ix2 r z)
      = ∑ h ∈ Finset.range 256, at2 y r h * at2 w 0 h := by
  rw [Ideal.matmul_constant_zero_apply, ← Equiv.sum_comp (contrEquiv1 dot_S512x256_S1x256_S512x1_1_1_0_0_n_n 256 rfl rfl).symm,
    Finset.sum_range (fun h => at2 y r h * at2 w 0 h)]
  refine Finset.sum_congr rfl fun k _ => ?_
  have hk := contrEquiv1_symm_val dot_S512x256_S1x256_S512x1_1_1_0_0_n_n 256 rfl rfl k
  have hz : z.val = 0 := by omega
  rw [at2_of y _ r k ((d2_l0 _ _).trans rfl) ((d2_l1 _ _).trans hk), at2_of w _ 0 k ((d2_r0 _ _).trans hz) ((d2_r1 _ _).trans hk)]

/-! ## The stored values -/

/-- The reset stores zero. -/
theorem reset1_apply (y : S512x256.Idx) : k0_pay1 (F := Ideal) y = 0 := by
  unfold k0_pay1
  simp only [shapeCast_self]
  exact Ideal.ofBits_zero_f32

theorem reset2_apply (y : S512x256.Idx) : k0_pay2 (F := Ideal) y = 0 := by
  unfold k0_pay2
  simp only [shapeCast_self]
  exact Ideal.ofBits_zero_f32

/-- The first accumulator's store: what it held plus this block's contraction. -/
theorem step1_apply (x : Vec Ideal S512x4096 .f32) (w : Vec Ideal S256x4096 .f32) (a : Vec Ideal S512x256 .f32)
    (r : Fin 512) (h : Fin 256) :
    k0_pay3 x w a (ix2 r h) = a (ix2 r h) + ∑ j ∈ Finset.range 4096, at2 x r j * at2 w h j := by
  unfold k0_pay3
  simp only [shapeCast_self, matmul]
  exact congrArg (a (ix2 r h) + ·) (blockDot_apply x w r h)

/-- The second accumulator's store: the same. -/
theorem step2_apply (x : Vec Ideal S512x4096 .f32) (w : Vec Ideal S256x4096 .f32) (a : Vec Ideal S512x256 .f32)
    (r : Fin 512) (h : Fin 256) :
    k0_pay4 x w a (ix2 r h) = a (ix2 r h) + ∑ j ∈ Finset.range 4096, at2 x r j * at2 w h j := by
  unfold k0_pay4
  simp only [shapeCast_self, matmul]
  exact congrArg (a (ix2 r h) + ·) (blockDot_apply x w r h)

/-- One clipped accumulator: the accumulator plus the bias row, clipped into [0, 1], at (r, h). -/
theorem clip_apply (a : FVec Ideal S512x256 .f32) (b : FVec Ideal S1x256 .f32) (r h : Nat) :
    at2 (minimumf (broadcast S512x256 (Scalar.ofBits (F := Ideal) .f32 0x3F800000#32))
          (maximumf (broadcast S512x256 (Scalar.ofBits (F := Ideal) .f32 0x00000000#32))
            (addf a (broadcastTo S512x256 b broadcasts_S1x256_S512x256)))) r h
      = if r < 512 ∧ h < 256 then min hi (max lo (at2 a r h + at2 b 0 h)) else 0 := by
  unfold at2
  by_cases hb : r < 512 ∧ h < 256
  · rw [dif_pos hb, if_pos hb, dif_pos hb, dif_pos (show 0 < 1 ∧ h < 256 from ⟨Nat.one_pos, hb.2⟩)]
    rw [minimumf_apply, maximumf_apply, addf_apply, broadcastTo_1b_ab_apply]
    rfl
  · rw [dif_neg hb, if_neg hb]

/-- The last store: the two clipped accumulators against the two halves of the output weights, summed. -/
theorem last_apply (a1 : Vec Ideal S512x256 .f32) (b1 : Vec Ideal S1x256 .f32) (a2 : Vec Ideal S512x256 .f32)
    (b2 : Vec Ideal S1x256 .f32) (wa wb : Vec Ideal S1x256 .f32) (r : Fin 512) (z : Fin 1) :
    k0_pay5 a1 b1 a2 b2 wa wb (ix2 r z)
      = (∑ h ∈ Finset.range 256, min hi (max lo (at2 a1 r h + at2 b1 0 h)) * at2 wa 0 h)
        + ∑ h ∈ Finset.range 256, min hi (max lo (at2 a2 r h + at2 b2 0 h)) * at2 wb 0 h := by
  unfold k0_pay5
  simp only [shapeCast_self, matmul]
  rw [addf_apply, rowDot_apply, rowDot_apply]
  congr 1
  · refine Finset.sum_congr rfl fun h hh => ?_
    rw [clip_apply, if_pos ⟨r.isLt, Finset.mem_range.mp hh⟩]
  · refine Finset.sum_congr rfl fun h hh => ?_
    rw [clip_apply, if_pos ⟨r.isLt, Finset.mem_range.mp hh⟩]

end Cert.KernelIdeal.PayIdx

end
-- ==== Proof.Acc.lean ====
/-
  What the two accumulators hold after each grid point, and what the output block holds at a last feature tile.

  Point t is row tile t / 10, feature tile t % 10. At feature tile 0 an accumulator is reset and receives the
  tile's product; at every later tile it receives its previous contents plus the tile's product. So after point t
  entry (r, h) of the first accumulator is the contraction of row 512·(t/10) + r of `x1` with row h of the first
  weight matrix cut after the first t % 10 + 1 runs of 4096 features (by induction on the point); at the last tile
  it is the whole contraction, and the block stored there is the specification's pairing for those 512 rows.
-/
import proofs.«153753_j37074157699726_1_alg».proof.Proof.Gen.KernelIdeal.Frame
import proofs.«153753_j37074157699726_1_alg».proof.Proof.Spec
import proofs.«153753_j37074157699726_1_alg».proof.Proof.Pieces
import proofs.«153753_j37074157699726_1_alg».proof.Proof.PayIdx
import proofs.«153753_j37074157699726_1_alg».proof.Proof.Blocks

set_option maxRecDepth 16384

noncomputable section

open Idealize.ShloMosaic Idealize.ShloMosaic.TcCoe Idealize.SL.Sem

namespace Cert.KernelIdeal.Acc

open Cert.KernelIdeal Cert.KernelIdeal.Gen Idealize.ShloMosaic.ValueIdx Cert.Spec Cert.KernelIdeal.PayIdx Cert.KernelIdeal.Blocks

variable (m : (ℓ : Loc nD τ sig) → Buf (Elt Ideal) ℓ)

/-! ## The argument arrays at natural coordinates -/

abbrev X1 (c : Dev nD) : Nat → Nat → EReal := at2 (m ((c : Thread nD τ).loc main_arg0) : S4096x40960.Idx → EReal)
abbrev X2 (c : Dev nD) : Nat → Nat → EReal := at2 (m ((c : Thread nD τ).loc main_arg1) : S4096x40960.Idx → EReal)
abbrev W1 (c : Dev nD) : Nat → Nat → EReal := at3 (m ((c : Thread nD τ).loc main_arg2) : S2x256x40960.Idx → EReal) 0
abbrev W2 (c : Dev nD) : Nat → Nat → EReal := at3 (m ((c : Thread nD τ).loc main_arg2) : S2x256x40960.Idx → EReal) 1
abbrev B1 (c : Dev nD) : Nat → EReal := at2 (m ((c : Thread nD τ).loc main_arg3) : S2x256.Idx → EReal) 0
abbrev B2 (c : Dev nD) : Nat → EReal := at2 (m ((c : Thread nD τ).loc main_arg3) : S2x256.Idx → EReal) 1
abbrev L (c : Dev nD) : Nat → EReal := at2 (m ((c : Thread nD τ).loc main_arg4) : S1x512.Idx → EReal) 0

/-- Feature tile t % 10's share of the contraction of row 512·(t/10) + r with weight row h. -/
def tile (X W : Nat → Nat → EReal) (n r h : Nat) : EReal :=
  ∑ j ∈ Finset.range 4096, X (512 * (n / 10) + r) (4096 * (n % 10) + j) * W h (4096 * (n % 10) + j)

theorem tile1_eq (c : Dev nD) (t : Fin cfg0.N) (r : Fin 512) (h : Fin 256) :
    ∑ j ∈ Finset.range 4096, at2 (iblk m c 0 t : S512x4096.Idx → EReal) r j * at2 (iblk m c 2 t : S256x4096.Idx → EReal) h j
      = tile (X1 m c) (W1 m c) t.val r h :=
  Finset.sum_congr rfl fun j hj => by
    rw [feat1 m c t r j r.isLt (Finset.mem_range.mp hj), wt1 m c t h j h.isLt (Finset.mem_range.mp hj)]

theorem tile2_eq (c : Dev nD) (t : Fin cfg0.N) (r : Fin 512) (h : Fin 256) :
    ∑ j ∈ Finset.range 4096, at2 (iblk m c 1 t : S512x4096.Idx → EReal) r j * at2 (iblk m c 3 t : S256x4096.Idx → EReal) h j
      = tile (X2 m c) (W2 m c) t.val r h :=
  Finset.sum_congr rfl fun j hj => by
    rw [feat2 m c t r j r.isLt (Finset.mem_range.mp hj), wt2 m c t h j h.isLt (Finset.mem_range.mp hj)]

/-! ## One point -/

/-- At feature tile 0 both accumulators end at the tile's share. -/
theorem step_first (c : Dev nD) (t : Fin cfg0.N) (h0 : t.val % 10 = 0) (r : Fin 512) (h : Fin 256) :
    (outsAt0 m c t.val t.isLt).2.1 (ix2 r h) = tile (X1 m c) (W1 m c) t.val r h
    ∧ (outsAt0 m c t.val t.isLt).2.2 (ix2 r h) = tile (X2 m c) (W2 m c) t.val r h := by
  have h1 : ¬t.val % 10 = 9 := by omega
  rw [outsAt0_A m c t h0 h1]
  dsimp only
  rw [Pieces.first_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), Pieces.first_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)]
  refine ⟨?_, ?_⟩
  · refine (step1_apply (iblk m c 0 t) (iblk m c 2 t) (k0_pay1 (F := Ideal)) r h).trans ?_
    rw [reset1_apply, zero_add]
    exact tile1_eq m c t r h
  · refine (step2_apply (iblk m c 1 t) (iblk m c 3 t) (k0_pay2 (F := Ideal)) r h).trans ?_
    rw [reset2_apply, zero_add]
    exact tile2_eq m c t r h

/-- At every later feature tile both accumulators end at what the point before left plus the tile's share. -/
theorem step_next (c : Dev nD) (t : Fin cfg0.N) (h0 : ¬t.val % 10 = 0) (r : Fin 512) (h : Fin 256) :
    (outsAt0 m c t.val t.isLt).2.1 (ix2 r h)
        = (outsAt0 m c (t.val - 1) (Nat.lt_of_le_of_lt (Nat.sub_le _ _) t.isLt)).2.1 (ix2 r h) + tile (X1 m c) (W1 m c) t.val r h
    ∧ (outsAt0 m c t.val t.isLt).2.2 (ix2 r h)
        = (outsAt0 m c (t.val - 1) (Nat.lt_of_le_of_lt (Nat.sub_le _ _) t.isLt)).2.2 (ix2 r h) + tile (X2 m c) (W2 m c) t.val r h := by
  by_cases h1 : t.val % 10 = 9
  · rw [outsAt0_C m c t h0 h1]
    dsimp only
    rw [Pieces.last_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, Pieces.last_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2]
    refine ⟨?_, ?_⟩
    · refine (step1_apply (iblk m c 0 t) (iblk m c 2 t) (outsAt0 m c (t.val - 1) (Nat.lt_of_le_of_lt (Nat.sub_le _ _) t.isLt)).2.1 r h).trans ?_
      rw [tile1_eq m c t r h]
    · refine (step2_apply (iblk m c 1 t) (iblk m c 3 t) (outsAt0 m c (t.val - 1) (Nat.lt_of_le_of_lt (Nat.sub_le _ _) t.isLt)).2.2 r h).trans ?_
      rw [tile2_eq m c t r h]
  · rw [outsAt0_B m c t h0 h1]
    dsimp only
    rw [Pieces.mid_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, Pieces.mid_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2]
    refine ⟨?_, ?_⟩
    · refine (step1_apply (iblk m c 0 t) (iblk m c 2 t) (outsAt0 m c (t.val - 1) (Nat.lt_of_le_of_lt (Nat.sub_le _ _) t.isLt)).2.1 r h).trans ?_
      rw [tile1_eq m c t r h]
    · refine (step2_apply (iblk m c 1 t) (iblk m c 3 t) (outsAt0 m c (t.val - 1) (Nat.lt_of_le_of_lt (Nat.sub_le _ _) t.isLt)).2.2 r h).trans ?_
      rw [tile2_eq m c t r h]

/-! ## Every point -/

theorem acc_first (X W : Nat → Nat → EReal) (n r h : Nat) (h0 : n % 10 = 0) :
    tile X W n r h = acc X W (512 * (n / 10) + r) h (n % 10 + 1) := by
  unfold tile
  rw [acc_succ, h0, acc_zero, zero_add]

theorem acc_next (X W : Nat → Nat → EReal) (n r h : Nat) (h0 : ¬(n + 1) % 10 = 0) :
    acc X W (512 * (n / 10) + r) h (n % 10 + 1) + tile X W (n + 1) r h
      = acc X W (512 * ((n + 1) / 10) + r) h ((n + 1) % 10 + 1) := by
  have e1 : (n + 1) / 10 = n / 10 := by omega
  have e2 : (n + 1) % 10 = n % 10 + 1 := by omega
  unfold tile
  rw [e1, e2, acc_succ X W _ h (n % 10 + 1)]

/-- After point n, entry (r, h) of each accumulator is the contraction cut after n % 10 + 1 runs. -/
theorem acc_inv (c : Dev nD) : ∀ (n : Nat) (hn : n < cfg0.N) (r : Fin 512) (h : Fin 256),
    (outsAt0 m c n hn).2.1 (ix2 r h) = acc (X1 m c) (W1 m c) (512 * (n / 10) + r) h (n % 10 + 1)
    ∧ (outsAt0 m c n hn).2.2 (ix2 r h) = acc (X2 m c) (W2 m c) (512 * (n / 10) + r) h (n % 10 + 1)
  | 0, hn, r, h => by
    have s := step_first m c ⟨0, hn⟩ rfl r h
    exact ⟨s.1.trans (acc_first _ _ 0 r h rfl), s.2.trans (acc_first _ _ 0 r h rfl)⟩
  | n + 1, hn, r, h => by
    by_cases h0 : (n + 1) % 10 = 0
    · have s := step_first m c ⟨n + 1, hn⟩ h0 r h
      exact ⟨s.1.trans (acc_first _ _ (n + 1) r h h0), s.2.trans (acc_first _ _ (n + 1) r h h0)⟩
    · have s := step_next m c ⟨n + 1, hn⟩ h0 r h
      have ih := acc_inv c n (Nat.lt_of_succ_lt hn) r h
      exact ⟨s.1.trans ((congrArg (· + tile (X1 m c) (W1 m c) (n + 1) r h) ih.1).trans (acc_next _ _ n r h h0)),
        s.2.trans ((congrArg (· + tile (X2 m c) (W2 m c) (n + 1) r h) ih.2).trans (acc_next _ _ n r h h0))⟩

/-! ## The output block at a last feature tile -/

/-- At a last feature tile each accumulator holds the whole contraction. -/
theorem acc_full (c : Dev nD) (t : Fin cfg0.N) (h1 : t.val % 10 = 9) (r : Fin 512) (h : Fin 256) :
    (outsAt0 m c t.val t.isLt).2.1 (ix2 r h) = dotRow (X1 m c) (W1 m c) (512 * (t.val / 10) + r) h
    ∧ (outsAt0 m c t.val t.isLt).2.2 (ix2 r h) = dotRow (X2 m c) (W2 m c) (512 * (t.val / 10) + r) h := by
  have s := acc_inv m c t.val t.isLt r h
  rw [h1] at s
  exact ⟨s.1.trans (acc_ten _ _ _ _), s.2.trans (acc_ten _ _ _ _)⟩

/-- The accumulators the last store reads, entry by entry at natural coordinates. -/
theorem acc_entries (c : Dev nD) (t : Fin cfg0.N) (h0 : ¬t.val % 10 = 0) (h1 : t.val % 10 = 9) (r : Fin 512) (h : Nat) (hh : h < 256) :
    at2 (k0_pay3 (F := Ideal) (iblk m c 0 t) (iblk m c 2 t) (outsAt0 m c (t.val - 1) (Nat.lt_of_le_of_lt (Nat.sub_le _ _) t.isLt)).2.1 : S512x256.Idx → EReal) r h
        = dotRow (X1 m c) (W1 m c) (512 * (t.val / 10) + r) h
    ∧ at2 (k0_pay4 (F := Ideal) (iblk m c 1 t) (iblk m c 3 t) (outsAt0 m c (t.val - 1) (Nat.lt_of_le_of_lt (Nat.sub_le _ _) t.isLt)).2.2 : S512x256.Idx → EReal) r h
        = dotRow (X2 m c) (W2 m c) (512 * (t.val / 10) + r) h := by
  have s := acc_full m c t h1 r ⟨h, hh⟩
  rw [outsAt0_C m c t h0 h1] at s
  dsimp only at s
  rw [Pieces.last_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, Pieces.last_acc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2] at s
  exact ⟨(at2_of (k0_pay3 (F := Ideal) (iblk m c 0 t) (iblk m c 2 t) (outsAt0 m c (t.val - 1) (Nat.lt_of_le_of_lt (Nat.sub_le _ _) t.isLt)).2.1 : S512x256.Idx → EReal) (ix2 r ⟨h, hh⟩) r h rfl rfl).symm.trans s.1,
    (at2_of (k0_pay4 (F := Ideal) (iblk m c 1 t) (iblk m c 3 t) (outsAt0 m c (t.val - 1) (Nat.lt_of_le_of_lt (Nat.sub_le _ _) t.isLt)).2.2 : S512x256.Idx → EReal) (ix2 r ⟨h, hh⟩) r h rfl rfl).symm.trans s.2⟩

/-- The block stored at a last feature tile, at (r, 0): the specification's pairing for row 512·(t/10) + r. -/
theorem out_last (c : Dev nD) (t : Fin cfg0.N) (h1 : t.val % 10 = 9) (r : Fin 512) (z : Fin 1) :
    (outsAt0 m c t.val t.isLt).1 (ix2 r z)
      = pair (X1 m c) (X2 m c) (W1 m c) (W2 m c) (B1 m c) (B2 m c) (L m c) (512 * (t.val / 10) + r) := by
  have h0 : ¬t.val % 10 = 0 := by omega
  rw [outsAt0_C m c t h0 h1]
  dsimp only
  rw [Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2]
  refine (last_apply (k0_pay3 (F := Ideal) (iblk m c 0 t) (iblk m c 2 t) (outsAt0 m c (t.val - 1) (Nat.lt_of_le_of_lt (Nat.sub_le _ _) t.isLt)).2.1) (iblk m c 4 t)
    (k0_pay4 (F := Ideal) (iblk m c 1 t) (iblk m c 3 t) (outsAt0 m c (t.val - 1) (Nat.lt_of_le_of_lt (Nat.sub_le _ _) t.isLt)).2.2) (iblk m c 5 t) (iblk m c 6 t) (iblk m c 7 t) r z).trans ?_
  unfold pair hid
  refine congrArg₂ (fun u v : EReal => u + v) (Finset.sum_congr rfl fun h hh => ?_) (Finset.sum_congr rfl fun h hh => ?_)
  · have hh' : h < 256 := Finset.mem_range.mp hh
    exact congrArg₂ (fun u v : EReal => u * v)
      (congrArg (fun u : EReal => min hi (max lo u))
        (congrArg₂ (fun u v : EReal => u + v) (acc_entries m c t h0 h1 r h hh').1 (bias1 m c t h hh')))
      (outw1 m c t h hh')
  · have hh' : h < 256 := Finset.mem_range.mp hh
    exact congrArg₂ (fun u v : EReal => u * v)
      (congrArg (fun u : EReal => min hi (max lo u))
        (congrArg₂ (fun u v : EReal => u + v) (acc_entries m c t h0 h1 r h hh').2 (bias2 m c t h hh')))
      (outw2 m c t h hh')

end Cert.KernelIdeal.Acc

end
-- ==== Proof.Final.lean ====
/-
  The kernel's run, read: the result array as the specification of the argument arrays.

  The output window's block for row tile q is written back once, after the last feature tile, at point
  10·q + 9; the eight blocks tile the [4096, 1] array, which therefore ends holding the pairing row by row. The
  host then drops the unit axis and adds the output bias to every entry.
-/
import proofs.«153753_j37074157699726_1_alg».proof.Proof.Gen.KernelIdeal.Frame
import proofs.«153753_j37074157699726_1_alg».proof.Proof.Spec
import proofs.«153753_j37074157699726_1_alg».proof.Proof.Blocks
import proofs.«153753_j37074157699726_1_alg».proof.Proof.Acc
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Spec Cert.KernelIdeal.Blocks Cert.KernelIdeal.Acc

variable (m : (ℓ : Loc nD τ sig) → Buf (Elt Ideal) ℓ) (ρ : Dev nD → PrngReg)

/-- The [4096, 1] array the kernel writes: the pairing, row by row. -/
def column (c : Dev nD) : S4096x1.Idx → EReal :=
  fun i => pair (X1 m c) (X2 m c) (W1 m c) (W2 m c) (B1 m c) (B2 m c) (L m c) (i 0).val

/-- What a last feature tile writes back is its block of the column. -/
theorem flushed_eq (c : Dev nD) (t : Fin cfg0.N) (hf : (cfg0.win 8).flush t = true) :
    (dats m 0 c).flushed 8 t = ((cfg0.win 8).blk t).view.read (Elt Ideal) (column m c) := by
  have h1 : t.val % 10 = 9 := (flush0_8 t).mp hf
  show (cfg0.win 8).cut (grid0.coords t) ((dats m 0 c).after 8 t) = _
  rw [after0_8]
  funext y
  obtain ⟨r, z, rfl⟩ : ∃ (r : Fin 512) (z : Fin 1), y = ix2 r z := ⟨y 0, y 1, eq_ix2 y⟩
  show (outsAt0 m c t.val t.isLt).1 (ix2 r z) = column m c (((cfg0.win 8).blk t).view.emb (ix2 r z))
  refine (out_last m c t h1 r z).trans ?_
  unfold column
  refine congrArg (pair (X1 m c) (X2 m c) (W1 m c) (W2 m c) (B1 m c) (B2 m c) (L m c)) ?_
  show 512 * (t.val / 10) + r.val = win0_8.index t (0 : Fin 2) * 512 + 1 * r.val
  rw [(idx_out t).1]; omega

/-- An index of the column is in point t's block iff each coordinate is in the block's range. -/
theorem mem_blk (t : Fin cfg0.N) (i : S4096x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v8).slice (win0_8.rect t)).set ↔ _
  rw [View.set_slice_whole, Rect.mem_set_unit]
  exact Iff.rfl

/-- Every row is in the block some last feature tile writes back. -/
theorem cover (i : S4096x1.Idx) : ∃ t : Fin cfg0.N, (cfg0.win 8).flush t = true ∧ i ∈ ((cfg0.win 8).blk t).view.set := by
  have hi0 : (i 0).val < 4096 := (i 0).isLt
  have hi1 : (i 1).val < 1 := (i 1).isLt
  have hN : cfg0.N = 80 := N_0
  refine ⟨⟨10 * ((i 0).val / 512) + 9, by omega⟩, (flush0_8 _).mpr (by show (10 * ((i 0).val / 512) + 9) % 10 = 9; omega), ?_⟩
  rw [mem_blk]
  intro a
  match a with
  | ⟨0, _⟩ =>
    show win0_8.index _ (0 : Fin 2) * 512 ≤ (i 0).val ∧ (i 0).val < win0_8.index _ (0 : Fin 2) * 512 + 512
    rw [(idx_out _).1]
    show (10 * ((i 0).val / 512) + 9) / 10 * 512 ≤ (i 0).val ∧ (i 0).val < (10 * ((i 0).val / 512) + 9) / 10 * 512 + 512
    omega
  | ⟨1, _⟩ =>
    show win0_8.index _ (1 : Fin 2) * 1 ≤ (i 1).val ∧ (i 1).val < win0_8.index _ (1 : Fin 2) * 1 + 1
    rw [(idx_out _).2]
    omega

/-- So the output window's array ends holding the column. -/
theorem final (c : Dev nD) : (dats m 0 c).arrAt 8 cfg0.N = column m c :=
  (dats m 0 c).arrAt_eq_of_cover 8 (column m c) (flushed_eq m c) cover

/-- The kernel's result as a function of the argument arrays: the specification. -/
def result (c : Dev nD) : S4096.Idx → EReal :=
  fun i => out (X1 m c) (X2 m c) (W1 m c) (W2 m c) (B1 m c) (B2 m c) (L m c)
    (at1 (m ((c : Thread nD τ).loc main_arg5) : S1.Idx → EReal) 0) (i 0).val

/-- A one-entry array has one index. -/
theorem one_idx (k : S1.Idx) : k = ix1 (0 : Fin 1) := funext fun d => by
  match d with
  | ⟨0, _⟩ => exact Fin.ext (by have : (k 0).val < 1 := (k 0).isLt; show (k 0).val = 0; omega)

/-- The host's lines after the launch: the column without its unit axis, plus the output bias. -/
theorem tail_eq (c : Dev nD) :
    Pipeline.afterTail₀ cfgs (dats m) 0 (V0 m) [hostOps1] c main_v12 = result m c := by
  have hv8 : (Pipeline.withArrays (cfgs 0).spec c (V0 m c) (fun w => (dats m 0 c).arrAt w (cfgs 0).N) (Proc.devRef .tc main_v8) : S4096x1.Idx → EReal)
      = column m c := (Pipeline.withArrays_arr spec0 launch0.win.arr_inj c _ _ 8).trans (final m c)
  have hv5 : (Pipeline.withArrays (cfgs 0).spec c (V0 m c) (fun w => (dats m 0 c).arrAt w (cfgs 0).N) (Proc.devRef .tc main_arg5) : S1.Idx → EReal)
      = m ((c : Thread nD τ).loc main_arg5) :=
    (Pipeline.withArrays_of_ne _ c (V0 m c) _ main_arg5 (by exact (by decide : ∀ w, Pipeline.arrRef spec0 w ≠ main_arg5))).trans (V_main_arg5 m c)
  have e : Pipeline.afterTail₀ cfgs (dats m) 0 (V0 m) [hostOps1] c main_v12
      = addf (F := Ideal) (s := S4096) (φ := .f32) (shapeCast S4096 (Pipeline.withArrays (cfgs 0).spec c (V0 m c) (fun w => (dats m 0 c).arrAt w (cfgs 0).N) (Proc.devRef .tc main_v8) : S4096x1.Idx → EReal) shapeCasts_S4096x1_S4096)
          (broadcastInDim S4096 ![] bcast_S_S4096 (shapeCast S_ (Pipeline.withArrays (cfgs 0).spec c (V0 m c) (fun w => (dats m 0 c).arrAt w (cfgs 0).N) (Proc.devRef .tc main_arg5) : S1.Idx → EReal) shapeCasts_S1_S_)) := by
    unfold Pipeline.afterTail₀
    show StableHlo.after hostOps1 _ (Proc.devRef .tc main_v12) = _
    after_results
    rfl
  rw [e, hv8, hv5]
  funext i
  obtain ⟨p, rfl⟩ : ∃ p : Fin 4096, i = ix1 p := ⟨i 0, eq_ix1 i⟩
  show shapeCast S4096 (column m c) shapeCasts_S4096x1_S4096 (ix1 p)
      + broadcastInDim S4096 ![] bcast_S_S4096 (shapeCast S_ (m ((c : Thread nD τ).loc main_arg5) : S1.Idx → EReal) shapeCasts_S1_S_) (ix1 p) = _
  unfold result out
  refine congrArg₂ (fun u v : EReal => u + v) ?_ ?_
  · refine (shapeCast_apply (column m c) shapeCasts_S4096x1_S4096 (ix1 p) (ix2 p (0 : Fin 1)) ?_).trans rfl
    rw [Shape.rowMajor_val_two, Shape.rowMajor_val_one]
    show p.val * 1 + 0 = p.val
    omega
  · refine (broadcastInDim_apply _ bcast_S_S4096 _ (ix1 p) ix0 (fun a => a.elim0)).trans ?_
    unfold shapeCast
    rw [one_idx (Shape.reshapeEquiv shapeCasts_S1_S_ ix0)]
    exact at1_of _ _ _ rfl

/-- The kernel's run, read: the result at the specification, the arguments unchanged. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.lean ====
/-
  The certificate's claims, assembled.

  Both idealized programs compute, for every batch row, the same function of the argument arrays over the extended
  reals (Proof/Spec.lean): two 40960-term contractions plus biases, clipped into [0, 1], paired with the two halves
  of the output weights, plus the output bias. The kernel accumulates each contraction over ten feature tiles of
  4096 and sums the two halves of the output layer separately (Proof/Acc.lean, Proof/Final.lean); the reference
  contracts all 40960 features at once and all 512 concatenated hidden units at once (Proof/RefValue.lean).
  Regrouping a finite sum needs no finiteness, so the precondition is not used by the value claim. The three frame
  claims are the generated frame runs; the idealization rewrote nothing.
-/
import proofs.«153753_j37074157699726_1_alg».proof.Defs
import proofs.«153753_j37074157699726_1_alg».proof.Proof.Gen.Kernel
import proofs.«153753_j37074157699726_1_alg».proof.Proof.Gen.Kernel.Skeleton
import proofs.«153753_j37074157699726_1_alg».proof.Proof.Gen.Kernel.Launch
import proofs.«153753_j37074157699726_1_alg».proof.Proof.Gen.Kernel.Points
import proofs.«153753_j37074157699726_1_alg».proof.Proof.Gen.Kernel.Frame
import proofs.«153753_j37074157699726_1_alg».proof.Proof.Gen.KernelIdeal
import proofs.«153753_j37074157699726_1_alg».proof.Proof.Gen.KernelIdeal.Skeleton
import proofs.«153753_j37074157699726_1_alg».proof.Proof.Gen.KernelIdeal.Launch
import proofs.«153753_j37074157699726_1_alg».proof.Proof.Gen.KernelIdeal.Points
import proofs.«153753_j37074157699726_1_alg».proof.Proof.Gen.KernelIdeal.Frame
import proofs.«153753_j37074157699726_1_alg».proof.Proof.Gen.ReferenceIdeal
import proofs.«153753_j37074157699726_1_alg».proof.Proof.Gen.ReferenceIdeal.Run
import proofs.«153753_j37074157699726_1_alg».proof.Proof.Gen.ReferenceIdeal.Read
import proofs.«153753_j37074157699726_1_alg».proof.Proof.Gen.Pre_finite_inputs
import proofs.«153753_j37074157699726_1_alg».proof.Proof.Spec
import proofs.«153753_j37074157699726_1_alg».proof.Proof.RefValue
import proofs.«153753_j37074157699726_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, (hagree c).1, (hagree c).2.1,
    (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
